-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)

variable [Facts₀]

class Facts : Prop extends Facts₀ where

variable [Facts]
-- ==== Proof.Reflection.lean ====
/-
  The Householder reflection of the rows of `z` across the hyperplanes orthogonal to the rows of `v`, as ONE function of the
  two 8192 × 2048 arrays over the extended reals:

      reflect v z (r, q) = z (r, q) - v (r, q) · (2 · (⟨v_r, z_r⟩ / ⟨v_r, v_r⟩)),

  where `⟨a_r, b_r⟩ = ∑ k, a (r, k) · b (r, k)` is the inner product of row `r` of `a` with row `r` of `b` (2048 terms), the
  quotient is the extended reals' division with its conventions at a zero divisor, and `2` is the value of the float word
  `0x40000000`, which is never evaluated: the same word stands on both sides of every equation below.

  An entry of the result depends on row `r` of both arrays and on nothing else, so any tiling of the rows computes the
  same function. The one algebraic law needed is that the scalar `2` may be attached either to the entry `v (r, q)` or to the
  row's quotient: `(2 · x) · c = x · (2 · c)`. Multiplication on the extended reals is commutative and associative without
  exception (also at `±∞` and at `0 · ±∞`), so the law holds for ALL extended reals and no finiteness is assumed anywhere.
-/
import Idealize.ShloMosaic.PureOps.Ideal
import Idealize.ShloMosaic.PureOps.Ideal.Laws
import Idealize.ShloMosaic.Lib.ValueIdx

noncomputable section

namespace Cert.Reflection

open Idealize.ShloMosaic Idealize.ShloMosaic.ValueIdx

/-- An 8192 × 2048 array of extended reals, indexed by (row, column). -/
abbrev Arr : Type := (⟨2, ![8192, 2048]⟩ : Shape).Idx → EReal

/-- The inner product of row `r` of `a` with row `r` of `b`. -/
def rowDot (a b : Arr) (r : Fin 8192) : EReal := ∑ k : Fin 2048, a (ix2 r k) * b (ix2 r k)

/-- The float word of `2.0`, read as an extended real. -/
abbrev two : EReal := Ideal.ofBits .f32 0x40000000#32

/-- Row `r`'s coefficient: twice the quotient of `⟨v_r, z_r⟩` by `⟨v_r, v_r⟩`. -/
def coeff (v z : Arr) (r : Fin 8192) : EReal := two * Ideal.div (rowDot v z r) (rowDot v v r)

/-- The reflected array at row `r`, column `q`. -/
def reflectAt (v z : Arr) (r : Fin 8192) (q : Fin 2048) : EReal := z (ix2 r q) - v (ix2 r q) * coeff v z r

/-- The reflected array. -/
def reflect (v z : Arr) : Arr := fun i => reflectAt v z (i 0) (i 1)

theorem reflect_ix2 (v z : Arr) (r : Fin 8192) (q : Fin 2048) : reflect v z (ix2 r q) = reflectAt v z r q := rfl

/-- A scalar factor moves from the entry to the row's quotient: on the extended reals `(s · x) · c = x · (s · c)`, by
    commutativity and associativity of the product alone. -/
theorem scalar_regroup (s x c : EReal) : (s * x) * c = x * (s * c) := by
  rw [mul_comm s x, mul_assoc]

end Cert.Reflection

end
-- ==== Proof.ReferenceReflects.lean ====
/-
  The reference program's result, read at an index, is `Cert.Reflection.reflect` of its two arguments.

  The reference forms the two row sums `⟨v_r, z_r⟩` and `⟨v_r, v_r⟩` as columns (8192 × 1), divides them, spreads the quotient
  back along each row, and multiplies it by `2 · v`; so its entry at (r, q) is `z (r, q) - (2 · v (r, q)) · (⟨v_r, z_r⟩ / ⟨v_r, v_r⟩)`.
  Each row sum starts from the float zero, which is the extended real `0`. The scalar `2` is moved from the entry to the
  quotient by `Cert.Reflection.scalar_regroup`.
-/
import proofs.«175027_j80573586473140_1_alg».proof.Proof.Gen.ReferenceIdeal.Read
import proofs.«175027_j80573586473140_1_alg».proof.Proof.Reflection

noncomputable section

namespace Cert.ReferenceIdeal.Reflects

open Cert.ReferenceIdeal Cert.ReferenceIdeal.Read Idealize.ShloMosaic Idealize.ShloMosaic.ValueIdx Cert.Reflection

/-- The entry (r, q) reads the column of `⟨v_r, z_r⟩` at row `r`, and that sum's `k`-th term is at (r, k). -/
theorem dot_term_index (r : Fin 8192) (q k : Fin 2048) :
    idx_main_v1 (idx_main_v2 (idx_main_v9 (ix2 r q))) k = ix2 r k :=
  funext fun a => Fin.ext (by match a with | ⟨0, _⟩ => rfl | ⟨1, _⟩ => rfl)

/-- The same for the column of `⟨v_r, v_r⟩`. -/
theorem norm_term_index (r : Fin 8192) (q k : Fin 2048) :
    idx_main_v4 (idx_main_v5 (idx_main_v9 (ix2 r q))) k = ix2 r k :=
  funext fun a => Fin.ext (by match a with | ⟨0, _⟩ => rfl | ⟨1, _⟩ => rfl)

/-- The reference's last stage is the reflection of its arguments. -/
theorem result_eq (v z : (⟨S8192x2048, .f32⟩ : BufTy).Contents (Elt Ideal)) :
    val_main_v11 (F := Ideal) v z = reflect v z := by
  funext i
  obtain ⟨r, q, rfl⟩ : ∃ (r : Fin 8192) (q : Fin 2048), i = ix2 r q := ⟨i 0, i 1, eq_ix2 i⟩
  rw [val_main_v11_apply, val_main_v10_apply, val_main_v7_apply, val_main_v6_apply, val_main_cst_1_apply,
    val_main_v9_apply, val_main_v8_apply, val_main_v2_apply, val_main_v5_apply, val_main_v1_apply, val_main_v4_apply]
  simp only [val_main_v0_apply, val_main_v3_apply, val_main_cst_apply, val_main_cst_0_apply, dot_term_index, norm_term_index,
    Ideal.ofBits_def, Ideal.ofBits_zero_f32, zero_add, Ideal.mulf_def, Ideal.subf_def, Ideal.hostDivf_def]
  rw [reflect_ix2]
  unfold reflectAt coeff rowDot
  rw [scalar_regroup]

end Cert.ReferenceIdeal.Reflects

end
-- ==== Proof.BlockReflects.lean ====
/-
  What the kernel leaves in one output block, read at an index.

  A block is 512 whole rows (512 × 2048). The body loads the block `x` of `v` and the block `y` of `z`, sums `x · y` and `x · x`
  along each row, divides, doubles, spreads the row's number along the row, and stores `y - x · (2 · (⟨x_p, y_p⟩ / ⟨x_p, x_p⟩))`.
  The generated value module has already read the re-layings (row sums as a column, the column spread along rows): its `E2`
  is the stored block as one function of the two loads, with the row sums still as lane reductions. Here a lane reduction
  from the zero word is read as the plain sum of the row's 2048 terms, so the block's entry (p, q) depends on row `p` of
  the two loaded blocks only: if those rows are rows `R` of two whole arrays, the entry is `Cert.Reflection.reflectAt` of
  the arrays at (R, q).
-/
import proofs.«175027_j80573586473140_1_alg».proof.Proof.Gen.KernelIdeal.Value
import proofs.«175027_j80573586473140_1_alg».proof.Proof.Reflection
import Idealize.ShloMosaic.PureOps.Ideal.Laws

noncomputable section

namespace Cert.KernelIdeal.BlockReflects

open Cert.KernelIdeal Cert.KernelIdeal.Gen Idealize.ShloMosaic Idealize.ShloMosaic.ValueIdx Cert.Reflection

/-- A sum along the lanes of a 512 × 2048 block, started from the zero word, is at row `p` the sum of that row's
    2048 entries. -/
theorem lane_sum (x : FVec Ideal S512x2048 .f32) (p : Fin 512) :
    multiReduction (F := Ideal) .add [1] S512 x 0x00000000#32 reduces_S512x2048_S512 (.inl rfl) rfl (ix1 p)
      = ∑ k : Fin 2048, x (ix2 p k) := by
  refine (Ideal.multiReduction_add_single x 0x00000000#32 reduces_S512x2048_S512 (.inl rfl) rfl (ix1 p)).trans ?_
  refine Finset.sum_congr rfl fun k _ => congrArg x ?_
  funext a; apply Fin.ext
  match a with | ⟨0, _⟩ => rfl | ⟨1, _⟩ => rfl

/-- The stored block at (p, q), from the loaded block `x` of `v` and `y` of `z`: only row `p` of each is read. -/
theorem stored_entry (y x : Vec Ideal S512x2048 .f32) (p : Fin 512) (q : Fin 2048) :
    Value.E2 (F := Ideal) y x (ix2 p q)
      = y (ix2 p q) - x (ix2 p q) * (two * Ideal.div (∑ k : Fin 2048, x (ix2 p k) * y (ix2 p k)) (∑ k : Fin 2048, x (ix2 p k) * x (ix2 p k))) := by
  have e0 : Value.ix2_0 (ix2 p q : S512x2048.Idx) = ix2 p q :=
    funext fun a => Fin.ext (by match a with | ⟨0, _⟩ => rfl | ⟨1, _⟩ => rfl)
  have e1 : Value.ix2_1 (ix2 p q : S512x2048.Idx) = ix2 p q :=
    funext fun a => Fin.ext (by match a with | ⟨0, _⟩ => rfl | ⟨1, _⟩ => rfl)
  have e2 : Value.ix2_2 (ix2 p q : S512x2048.Idx) = ix1 p :=
    funext fun a => Fin.ext (by match a with | ⟨0, _⟩ => rfl)
  have e3 : Value.ix2_3 (ix2 p q : S512x2048.Idx) = ix1 p :=
    funext fun a => Fin.ext (by match a with | ⟨0, _⟩ => rfl)
  show FloatOps.subf (y (Value.ix2_0 (ix2 p q))) (FloatOps.mulf (x (Value.ix2_1 (ix2 p q))) (FloatOps.mulf (Scalar.ofBits .f32 0x40000000#32)
    (FloatOps.divf ((multiReduction (F := Ideal) .add [1] S512 (mulf x y) 0x00000000#32 reduces_S512x2048_S512 (.inl rfl) rfl) (Value.ix2_2 (ix2 p q)))
      ((multiReduction (F := Ideal) .add [1] S512 (mulf x x) 0x00000000#32 reduces_S512x2048_S512 (.inl rfl) rfl) (Value.ix2_3 (ix2 p q)))))) = _
  rw [e0, e1, e2, e3, lane_sum, lane_sum]
  rfl

/-- If row `p` of the loaded blocks is row `R` of the whole arrays `v` and `z`, the stored block's entry (p, q) is the
    reflection of the arrays at (R, q). -/
theorem stored_entry_of_rows (v z : Arr) (y x : Vec Ideal S512x2048 .f32) (p : Fin 512) (R : Fin 8192)
    (hx : ∀ k : Fin 2048, x (ix2 p k) = v (ix2 R k)) (hy : ∀ k : Fin 2048, y (ix2 p k) = z (ix2 R k)) (q : Fin 2048) :
    Value.E2 (F := Ideal) y x (ix2 p q) = reflectAt v z R q := by
  rw [stored_entry]
  unfold reflectAt coeff rowDot
  simp only [hx, hy]

end Cert.KernelIdeal.BlockReflects

end
-- ==== Proof.ArrayReflects.lean ====
/-
  From the blocks to the whole array: after the kernel's run its result array is `Cert.Reflection.reflect` of its arguments.

  The grid has 16 points. At point `t` each of the three windows (the block of `v`, the block of `z`, the output block) is
  rows `512·t … 512·t + 511`, all 2048 columns; an index (p, q) inside a block is the array's index (512·b + p, q), where
  `b` is the block's number. So row `p` of the two loaded blocks is row `512·b + p` of the argument arrays, and by
  `Cert.KernelIdeal.BlockReflects.stored_entry_of_rows` the block written back at `t` is the reflected array read through the
  output block's rectangle. The 16 output blocks cover the 8192 rows (row `R` lies in block `R / 512`), so the array ends
  holding the reflected array everywhere.
-/
import proofs.«175027_j80573586473140_1_alg».proof.Proof.Gen.KernelIdeal.Value
import proofs.«175027_j80573586473140_1_alg».proof.Proof.BlockReflects
import Idealize.ShloMosaic.Lib.Pipeline.Value

noncomputable section

namespace Cert.KernelIdeal.ArrayReflects

open Cert.KernelIdeal Cert.KernelIdeal.Gen Idealize.ShloMosaic Idealize.ShloMosaic.TcCoe Idealize.SL.Sem
open Idealize.ShloMosaic.ValueIdx Cert.Reflection
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- At every point the two input blocks and the output block are the same group of 512 rows (one of 16) and all the
    columns. -/
theorem blocks_of_point : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (0 : Fin 2) ≤ 15 ∧ win0_2.index t (1 : Fin 2) = 0 :=
  (by decide +kernel : ∀ t : Fin grid0.N, _)

/-- Every one of the 16 groups of rows is some point's output block. -/
theorem point_of_block : ∀ b : Fin 16, ∃ t : Fin cfg0.N, win0_2.index t = ![b.val, 0] :=
  (by decide +kernel : ∀ b : Fin 16, ∃ t : Fin grid0.N, win0_2.index t = ![b.val, 0])

/-- A stored block whose loaded rows are rows `512·b + p` of `v` and `z` is, at the block index `j`, the reflected array at the
    array index `i` that `j` stands for in block `b`. -/
theorem stored_block (v z : Arr) (y x : Vec Ideal S512x2048 .f32) (b : Nat) (hb : b ≤ 15) (j : S512x2048.Idx) (i : S8192x2048.Idx)
    (hi0 : (i 0).val = b * 512 + (j 0).val) (hi1 : (i 1).val = (j 1).val)
    (hx : ∀ (p : Fin 512) (k : Fin 2048), x (ix2 p k) = v (ix2 (⟨b * 512 + p.val, by have := p.isLt; omega⟩ : Fin 8192) k))
    (hy : ∀ (p : Fin 512) (k : Fin 2048), y (ix2 p k) = z (ix2 (⟨b * 512 + p.val, by have := p.isLt; omega⟩ : Fin 8192) k)) :
    Value.E2 (F := Ideal) y x j = reflect v z i := by
  obtain ⟨p, q, rfl⟩ : ∃ (p : Fin 512) (q : Fin 2048), j = ix2 p q := ⟨j 0, j 1, eq_ix2 j⟩
  have hi : i = ix2 (⟨b * 512 + p.val, by have := p.isLt; omega⟩ : Fin 8192) q := by
    funext a; apply Fin.ext
    match a with
    | ⟨0, _⟩ => exact hi0
    | ⟨1, _⟩ => exact hi1
  rw [hi, reflect_ix2]
  exact BlockReflects.stored_entry_of_rows v z y x p _ (hx p) (hy p) q

/-- What point `t` writes back is the reflected array read through the point's output block. -/
theorem flushed_eq (c : Dev nD) (t : Fin cfg0.N) :
    (dats m 0 c).flushed 2 t = ((cfg0.win 2).blk t).view.read (Elt Ideal) (reflect (V m c main_arg0) (V m c main_arg1)) := by
  rw [Value.flushed2]
  unfold out0_2
  simp only [View.ld_unit_zero (S := S512x2048) origin_zero]
  obtain ⟨e0, e1, e2, e3, e4, e5⟩ := blocks_of_point t
  funext j
  show View.canon [(⟨r0_0, k0_pay1 (iblk m c 0 t) (iblk m c 1 t)⟩ : View.Piece (Elt Ideal) S512x2048 .f32)] j
    = reflect (V m c main_arg0) (V m c main_arg1) (((cfg0.win 2).blk t).view.emb j)
  refine (Value.canon2_eq (F := Ideal) (iblk m c 1 t) (iblk m c 0 t) j).trans ?_
  refine stored_block (V m c main_arg0) (V m c main_arg1) (iblk m c 1 t) (iblk m c 0 t) (win0_2.index t (0 : Fin 2)) e4 j
    (((cfg0.win 2).blk t).view.emb j) ?_ ?_ ?_ ?_
  · show win0_2.index t (0 : Fin 2) * 512 + 1 * (j 0).val = win0_2.index t (0 : Fin 2) * 512 + (j 0).val
    omega
  · show win0_2.index t (1 : Fin 2) * 2048 + 1 * (j 1).val = (j 1).val
    omega
  · intro p k
    show V m c main_arg0 (((cfg0.win 0).blk t).view.emb (ix2 p k)) = V m c main_arg0 _
    refine congrArg (V m c main_arg0) ?_
    funext a; apply Fin.ext
    match a with
    | ⟨0, _⟩ => show win0_0.index t (0 : Fin 2) * 512 + 1 * p.val = win0_2.index t (0 : Fin 2) * 512 + p.val; omega
    | ⟨1, _⟩ => show win0_0.index t (1 : Fin 2) * 2048 + 1 * k.val = k.val; omega
  · intro p k
    show V m c main_arg1 (((cfg0.win 1).blk t).view.emb (ix2 p k)) = V m c main_arg1 _
    refine congrArg (V m c main_arg1) ?_
    funext a; apply Fin.ext
    match a with
    | ⟨0, _⟩ => show win0_1.index t (0 : Fin 2) * 512 + 1 * p.val = win0_2.index t (0 : Fin 2) * 512 + p.val; omega
    | ⟨1, _⟩ => show win0_1.index t (1 : Fin 2) * 2048 + 1 * k.val = k.val; omega

/-- An index of the array is in point `t`'s output block iff each coordinate is in the block's range on its axis. -/
theorem mem_block (t : Fin cfg0.N) (i : S8192x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- Every index of the array lies in some point's output block: row `R` in the block numbered `R / 512`. -/
theorem covered (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := point_of_block ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is the reflected array of the arguments as launched. -/
theorem final (c : Dev nD) :
    (dats m 0 c).arrAt 2 cfg0.N = reflect (m ((c : Thread nD τ).loc main_arg0)) (m ((c : Thread nD τ).loc main_arg1)) :=
  (dats m 0 c).arrAt_eq_of_cover 2 (reflect (V m c main_arg0) (V m c main_arg1)) (fun t _ => flushed_eq m c t) covered

/-- The kernel's run: the result array ends at the reflected array, the arguments unchanged. -/
theorem run : θ_run defs (onTc (τ := τ) (main (F := Ideal))) ⟨m, fun _ => 0, ρ⟩ fun r => ∀ c : Dev nD,
      r.2.mem ((c : Thread nD τ).loc main_v0) = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayReflects

end
-- ==== Proof.lean ====
/-
  A Householder reflection, row by row: for two 8192 × 2048 arrays `v` and `z`, each row `z_r` is sent to
  `z_r - 2 · v_r · (⟨v_r, z_r⟩ / ⟨v_r, v_r⟩)`. The kernel walks the rows in 16 blocks of 512 whole rows and, inside a block,
  attaches the factor `2` to the row's quotient; the reference works on the whole arrays and attaches it to the entry
  `v (r, q)`. Over the extended reals both are `Cert.Reflection.reflect v z`:

  * an entry depends on row `r` of `v` and `z` only, and a block holds whole rows, so the tiling changes nothing
    (Proof/BlockReflects.lean for one block, Proof/ArrayReflects.lean for the 16 blocks covering the array);
  * a sum along a row started from the float zero is the plain sum of the row's terms on both sides, and the two
    divisions are the same function of the same two sums;
  * `(2 · x) · c = x · (2 · c)` by commutativity and associativity of the product, which hold for all extended reals
    (Proof/Reflection.lean), so the precondition that the inputs are finite is never used for the values.

  The three frames are the generated ones (the reference's is its generated run with the result dropped), and the
  idealized kernel is the printed kernel's own text read over the extended reals: no rewrite was applied, so there is
  nothing to preserve.
-/
import proofs.«175027_j80573586473140_1_alg».proof.Defs
import proofs.«175027_j80573586473140_1_alg».proof.Proof.Gen.Kernel
import proofs.«175027_j80573586473140_1_alg».proof.Proof.Gen.Kernel.Skeleton
import proofs.«175027_j80573586473140_1_alg».proof.Proof.Gen.Kernel.Launch
import proofs.«175027_j80573586473140_1_alg».proof.Proof.Gen.Kernel.Points
import proofs.«175027_j80573586473140_1_alg».proof.Proof.Gen.Kernel.Frame
import proofs.«175027_j80573586473140_1_alg».proof.Proof.Gen.KernelIdeal
import proofs.«175027_j80573586473140_1_alg».proof.Proof.Gen.KernelIdeal.Skeleton
import proofs.«175027_j80573586473140_1_alg».proof.Proof.Gen.KernelIdeal.Launch
import proofs.«175027_j80573586473140_1_alg».proof.Proof.Gen.KernelIdeal.Points
import proofs.«175027_j80573586473140_1_alg».proof.Proof.Gen.KernelIdeal.Frame
import proofs.«175027_j80573586473140_1_alg».proof.Proof.Gen.ReferenceIdeal
import proofs.«175027_j80573586473140_1_alg».proof.Proof.Gen.Pre_finite_inputs
import proofs.«175027_j80573586473140_1_alg».proof.Proof.Gen.KernelIdeal.Value
import proofs.«175027_j80573586473140_1_alg».proof.Proof.Gen.ReferenceIdeal.Run
import proofs.«175027_j80573586473140_1_alg».proof.Proof.Gen.ReferenceIdeal.Read
import proofs.«175027_j80573586473140_1_alg».proof.Proof.ReferenceReflects
import proofs.«175027_j80573586473140_1_alg».proof.Proof.ArrayReflects
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reflected array of their (agreeing) arguments: the kernel's result array by the 16 blocks
    that cover it, the reference's by reading its last stage at an index. -/
theorem algebraic : Cert.algebraic_KernelIdeal_ReferenceIdeal := by
  intro m ρ m' ρ' _ hagree
  refine ⟨fun c => Cert.Reflection.reflect (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayReflects.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.Reflects.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
